-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn_part1 {F : FTy → Type} [FloatOps F] (main_v13 : IVec S_ 1) (main_v16 : IVec S8x64x256x256 1) : IVec S_ 1 :=
  let main_c_5 : IVec S_ 1 := constantI S_ 1 1#1
  let main_v17 : IVec S_ 1 := (fun x v => Host.reduce IntOp.andi x v reducesTo_S8x64x256x256_S_d0_1_2_3 h_S_) main_v16 main_c_5
  let main_v18 : IVec S_ 1 := andi main_v13 main_v17
  main_v18

def fn {F : FTy → Type} [FloatOps F] (main_arg0 : FVec F S8x64x256x256 .f32) (main_arg1 : FVec F S8x64x256x256 .f32) (main_arg2 : FVec F S8x64x256x256 .f32) (main_arg3 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x64x256x256 .f32 := Host.absf main_arg1
  let main_cst_0 : FVec F S_ .f32 := constant S_ .f32 0x7F800000#32
  let main_v5 : FVec F S8x64x256x256 .f32 := broadcastInDim S8x64x256x256 ![] bcast_S_S8x64x256x256 main_cst_0
  let main_v6 : IVec S8x64x256x256 1 := cmpf .olt main_v4 main_v5
  let main_c_1 : IVec S_ 1 := constantI S_ 1 1#1
  let main_v7 : IVec S_ 1 := (fun x v => Host.reduce IntOp.andi x v reducesTo_S8x64x256x256_S_d0_1_2_3 h_S_) main_v6 main_c_1
  let main_v8 : IVec S_ 1 := andi main_v3 main_v7
  let main_v9 : FVec F S8x64x256x256 .f32 := Host.absf main_arg2
  let main_cst_2 : FVec F S_ .f32 := constant S_ .f32 0x7F800000#32
  let main_v10 : FVec F S8x64x256x256 .f32 := broadcastInDim S8x64x256x256 ![] bcast_S_S8x64x256x256 main_cst_2
  let main_v11 : IVec S8x64x256x256 1 := cmpf .olt main_v9 main_v10
  let main_c_3 : IVec S_ 1 := constantI S_ 1 1#1
  let main_v12 : IVec S_ 1 := (fun x v => Host.reduce IntOp.andi x v reducesTo_S8x64x256x256_S_d0_1_2_3 h_S_) main_v11 main_c_3
  let main_v13 : IVec S_ 1 := andi main_v8 main_v12
  let main_v14 : FVec F S8x64x256x256 .f32 := Host.absf main_arg3
  let main_cst_4 : FVec F S_ .f32 := constant S_ .f32 0x7F800000#32
  let main_v15 : FVec F S8x64x256x256 .f32 := broadcastInDim S8x64x256x256 ![] bcast_S_S8x64x256x256 main_cst_4
  let main_v16 : IVec S8x64x256x256 1 := cmpf .olt main_v14 main_v15
  fn_part1 (F := F) main_v13 main_v16
-- ==== Kernel.lean ====
abbrev S8x64x256x256 : Shape := ⟨4, ![8, 64, 256, 256]⟩
abbrev S8x64x512x512 : Shape := ⟨4, ![8, 64, 512, 512]⟩
abbrev S1x4x256x256 : Shape := ⟨4, ![1, 4, 256, 256]⟩
abbrev S1x4x512x512 : Shape := ⟨4, ![1, 4, 512, 512]⟩
abbrev S1x4x256x256x1 : Shape := ⟨5, ![1, 4, 256, 256, 1]⟩
abbrev S1x4x256x256x2 : Shape := ⟨5, ![1, 4, 256, 256, 2]⟩
abbrev S1x4x256x1x256x2 : Shape := ⟨6, ![1, 4, 256, 1, 256, 2]⟩
abbrev S1x4x256x2x256x2 : Shape := ⟨6, ![1, 4, 256, 2, 256, 2]⟩

abbrev nBuf : Space → Nat
  | .hbm => 5
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S8x64x512x512, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x256x256, .f32⟩
  | .local _ .vmem, ⟨3, _⟩ => ⟨S1x4x256x256, .f32⟩
  | .local _ .vmem, ⟨4, _⟩ => ⟨S1x4x256x256, .f32⟩
  | .local _ .vmem, ⟨5, _⟩ => ⟨S1x4x256x256, .f32⟩
  | .local _ .vmem, ⟨6, _⟩ => ⟨S1x4x256x256, .f32⟩
  | .local _ .vmem, ⟨7, _⟩ => ⟨S1x4x256x256, .f32⟩
  | .local _ .vmem, ⟨8, _⟩ => ⟨S1x4x512x512, .f32⟩
  | .local _ .vmem, ⟨9, _⟩ => ⟨S1x4x512x512, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S1x4x256x256x1 : S1x4x256x256.ShapeCasts S1x4x256x256x1
  concatenates_S1x4x256x256x1_S1x4x256x256x1_S1x4x256x256x2_d4 : Shape.Concatenates [S1x4x256x256x1, S1x4x256x256x1] S1x4x256x256x2 4
  shapeCasts_S1x4x256x256x2_S1x4x256x1x256x2 : S1x4x256x256x2.ShapeCasts S1x4x256x1x256x2
  concatenates_S1x4x256x1x256x2_S1x4x256x1x256x2_S1x4x256x2x256x2_d3 : Shape.Concatenates [S1x4x256x1x256x2, S1x4x256x1x256x2] S1x4x256x2x256x2 3
  shapeCasts_S1x4x256x2x256x2_S1x4x512x512 : S1x4x256x2x256x2.ShapeCasts S1x4x512x512
  inb_S1x4x512x512_S1x4x512x512_0_0_0_0 : ∀ a, (![0, 0, 0, 0] : Fin 4 → Nat) a + S1x4x512x512.size a ≤ S1x4x512x512.size a
  h_S1x4x512x512 : 0 < S1x4x512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S8x64x256x256.size a
  hwx0_0 : ∀ i : grid0.Coords, EltTy.bits .f32 = 32 ∨ (Rect.block (s := S8x64x256x256) S1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x64x256x256.size a
  hwx0_1 : ∀ i : grid0.Coords, EltTy.bits .f32 = 32 ∨ (Rect.block (s := S8x64x256x256) S1x4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x256.size a ≤ S8x64x256x256.size a
  hwx0_2 : ∀ i : grid0.Coords, EltTy.bits .f32 = 32 ∨ (Rect.block (s := S8x64x256x256) S1x4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x256x256.size a ≤ S8x64x256x256.size a
  hwx0_3 : ∀ i : grid0.Coords, EltTy.bits .f32 = 32 ∨ (Rect.block (s := S8x64x256x256) S1x4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x512x512.size a ≤ S8x64x512x512.size a
  hwx0_4 : ∀ i : grid0.Coords, EltTy.bits .f32 = 32 ∨ (Rect.block (s := S8x64x512x512) S1x4x512x512.size (cc0_transform_4 i) (hinb0_4 i)).WholeWords (EltTy.packing .f32)

variable [Facts₀]

abbrev win0_0 : Pipeline.Window sig grid0 :=
  Pipeline.Window.ofSpec (Memref.whole main_arg0) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x256x256x1 : Shape := ⟨5, ![8, 64, 256, 256, 1]⟩
abbrev S8x64x256x256x2 : Shape := ⟨5, ![8, 64, 256, 256, 2]⟩
abbrev S8x64x256x1x256x2 : Shape := ⟨6, ![8, 64, 256, 1, 256, 2]⟩
abbrev S8x64x256x2x256x2 : Shape := ⟨6, ![8, 64, 256, 2, 256, 2]⟩
abbrev S8x64x512x512 : Shape := ⟨4, ![8, 64, 512, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S8x64x256x256, .f32⟩
  | .hbm, ⟨5, _⟩ => ⟨S8x64x256x256, .f32⟩
  | .hbm, ⟨6, _⟩ => ⟨S8x64x256x256, .f32⟩
  | .hbm, ⟨7, _⟩ => ⟨S_, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S_, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S_, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S_, .f32⟩
  | .hbm, ⟨26, _⟩ => ⟨S8x64x256x256, .f32⟩
  | .hbm, ⟨27, _⟩ => ⟨S8x64x256x256, .f32⟩
  | .hbm, ⟨28, _⟩ => ⟨S8x64x256x256x1, .f32⟩
  | .hbm, ⟨29, _⟩ => ⟨S8x64x256x256x1, .f32⟩
  | .hbm, ⟨30, _⟩ => ⟨S8x64x256x256x2, .f32⟩
  | .hbm, ⟨31, _⟩ => ⟨S8x64x256x256x1, .f32⟩
  | .hbm, ⟨32, _⟩ => ⟨S8x64x256x256x1, .f32⟩
  | .hbm, ⟨33, _⟩ => ⟨S8x64x256x256x2, .f32⟩
  | .hbm, ⟨34, _⟩ => ⟨S8x64x256x1x256x2, .f32⟩
  | .hbm, ⟨35, _⟩ => ⟨S8x64x256x1x256x2, .f32⟩
  | .hbm, ⟨36, _⟩ => ⟨S8x64x256x2x256x2, .f32⟩
  | .hbm, ⟨37, _⟩ => ⟨S8x64x512x512, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S_S8x64x256x256 : S_.BroadcastsInDim S8x64x256x256 (![] : Fin 0 → Fin S8x64x256x256.rank)
  bcast_S8x64x256x256_S8x64x256x256x1_0_1_2_3 : S8x64x256x256.BroadcastsInDim S8x64x256x256x1 (![0, 1, 2, 3] : Fin 4 → Fin S8x64x256x256x1.rank)
  concatenates_S8x64x256x256x1_S8x64x256x256x1_S8x64x256x256x2_d4 : Shape.Concatenates [S8x64x256x256x1, S8x64x256x256x1] S8x64x256x256x2 4
  bcast_S8x64x256x256x2_S8x64x256x1x256x2_0_1_2_4_5 : S8x64x256x256x2.BroadcastsInDim S8x64x256x1x256x2 (![0, 1, 2, 4, 5] : Fin 5 → Fin S8x64x256x1x256x2.rank)
  concatenates_S8x64x256x1x256x2_S8x64x256x1x256x2_S8x64x256x2x256x2_d3 : Shape.Concatenates [S8x64x256x1x256x2, S8x64x256x1x256x2] S8x64x256x2x256x2 3
  shapeCasts_S8x64x256x2x256x2_S8x64x512x512 : S8x64x256x2x256x2.ShapeCasts S8x64x512x512

variable [Facts₀]

class Facts : Prop extends Facts₀ where

variable [Facts]
-- ==== Proof.LibQuadInterleave.lean ====
/-
  Four arrays interleaved two by two.

  Four arrays a, c, b, d of one shape [A, B, H, W] are joined into one array of shape [A, B, 2H, 2W]: a and c alternate
  along the last axis to give the even rows, b and d alternate to give the odd rows, and even and odd rows alternate along
  the third axis. Entry (n, ch, r, s) of the result is therefore entry (n, ch, r / 2, s / 2) of
      a  when r and s are even,      c  when r is even and s is odd,
      b  when r is odd and s is even, d  when r and s are odd
  (quadAt below). The join is spelt as a chain of layout operations: each array gets a trailing unit axis
  ([A,B,H,W,1]); two of them are concatenated along it ([A,B,H,W,2]); a unit axis is put in front of the last two
  ([A,B,H,1,W,2]); two of those are concatenated along it ([A,B,H,2,W,2]); and the result is flattened row-major to
  [A,B,2H,2W]. A unit axis is added either by a shape cast or by a broadcast_in_dim that lists the kept axes: the two
  chains are read here at an index, operation by operation, and both are quadAt.

  The row-major fact behind the last step: position ((X*H + r/2)*2 + r%2)*W + s/2)*2 + s%2 of the rank-6 array is
  position (X*(2H) + r)*(2W) + s of the rank-4 one, because r = 2*(r/2) + r%2 and s = 2*(s/2) + s%2.
-/
import Mathlib.Tactic.Ring
import Idealize.ShloMosaic.Lib.Pipeline.Value
import Idealize.ShloMosaic.Lib.ValueIdx
import Idealize.ShloMosaic.Lib.ValueIdxRank6

namespace Cert.Lib.QuadInterleave

open Idealize.ShloMosaic Idealize.ShloMosaic.ValueIdx

variable {α : Type} {A B H W L : Nat}

/-! ## Arithmetic -/

/-- Splitting a row r and a lane s into half and parity does not move the row-major position. -/
theorem pos_split (X H W r s : Nat) :
    (((X * H + r / 2) * 2 + r % 2) * W + s / 2) * 2 + s % 2 = (X * (H * 2) + r) * (W * 2) + s := by
  have hr := Nat.div_add_mod r 2
  have hs := Nat.div_add_mod s 2
  generalize r / 2 = a at hr ⊢
  generalize r % 2 = b at hr ⊢
  generalize s / 2 = e at hs ⊢
  generalize s % 2 = f at hs ⊢
  subst hr hs
  ring

/-- A coordinate on an axis of extent one is zero; on any other axis it is itself. -/
theorem unit_or_self {N : Nat} (i : Fin N) : i.val = if N = 1 then 0 else i.val := by
  split
  · have := i.isLt; omega
  · rfl

/-- Half of a coordinate of the doubled axis. -/
def halfIdx {H2 : Nat} (hH : H2 = H * 2) (r : Fin H2) : Fin H := ⟨r.val / 2, by have := r.isLt; omega⟩

/-- Parity of a coordinate. -/
def parity {H2 : Nat} (r : Fin H2) : Fin 2 := ⟨r.val % 2, Nat.mod_lt _ (by decide)⟩

/-! ## The five layout steps at an index -/

/-- [A,B,H,W] shape-cast to [A,B,H,W,1]: the trailing unit axis carries no information. -/
theorem shapeCast_laneUnit_apply (x : (⟨4, ![A, B, H, W]⟩ : Shape).Idx → α)
    (h : (⟨4, ![A, B, H, W]⟩ : Shape).ShapeCasts ⟨5, ![A, B, H, W, 1]⟩)
    (n : Fin A) (ch : Fin B) (p : Fin H) (q : Fin W) (u : Fin 1) :
    shapeCast ⟨5, ![A, B, H, W, 1]⟩ x h (ix5 n ch p q u) = x (ix4 n ch p q) := by
  obtain rfl : u = 0 := Subsingleton.elim _ _
  refine shapeCast_apply x h _ _ ?_
  rw [Shape.rowMajor_val_four, Shape.rowMajor_val_five]
  show ((n.val * B + ch.val) * H + p.val) * W + q.val = (((n.val * B + ch.val) * H + p.val) * W + q.val) * 1 + 0
  rw [Nat.mul_one, Nat.add_zero]

/-- [A,B,H,W] broadcast to [A,B,H,W,1] keeping its four axes: the same array with a trailing unit axis. -/
theorem broadcast_laneUnit_apply (x : (⟨4, ![A, B, H, W]⟩ : Shape).Idx → α)
    (h : (⟨4, ![A, B, H, W]⟩ : Shape).BroadcastsInDim ⟨5, ![A, B, H, W, 1]⟩ (![0, 1, 2, 3] : Fin 4 → Fin 5))
    (n : Fin A) (ch : Fin B) (p : Fin H) (q : Fin W) (u : Fin 1) :
    broadcastInDim ⟨5, ![A, B, H, W, 1]⟩ (![0, 1, 2, 3] : Fin 4 → Fin 5) h x (ix5 n ch p q u) = x (ix4 n ch p q) :=
  broadcastInDim_apply _ h x _ _ (fun (a : Fin 4) => match a with
    | ⟨0, _⟩ => unit_or_self n
    | ⟨1, _⟩ => unit_or_self ch
    | ⟨2, _⟩ => unit_or_self p
    | ⟨3, _⟩ => unit_or_self q)

/-- Two [A,B,H,W,1] arrays concatenated along the last axis, read at lane 0: the first. -/
theorem concat_lanes_even (x₁ x₂ : (⟨5, ![A, B, H, W, 1]⟩ : Shape).Idx → α)
    (h : Shape.Concatenates [(⟨5, ![A, B, H, W, 1]⟩ : Shape), ⟨5, ![A, B, H, W, 1]⟩] ⟨5, ![A, B, H, W, 2]⟩ (4 : Fin 5))
    (n : Fin A) (ch : Fin B) (p : Fin H) (q : Fin W) (l : Fin 2) (hl : l.val = 0) :
    concatenate ⟨5, ![A, B, H, W, 2]⟩ (4 : Fin 5) [⟨⟨5, ![A, B, H, W, 1]⟩, x₁⟩, ⟨⟨5, ![A, B, H, W, 1]⟩, x₂⟩] h (ix5 n ch p q l)
      = x₁ (ix5 n ch p q 0) :=
  concatenate_pair_apply_left (4 : Fin 5) x₁ x₂ h (ix5 n ch p q l) rfl (ix5 n ch p q 0) (fun (b : Fin 5) =>
    match b with
    | ⟨0, _⟩ => rfl
    | ⟨1, _⟩ => rfl
    | ⟨2, _⟩ => rfl
    | ⟨3, _⟩ => rfl
    | ⟨4, _⟩ => hl.symm)

/-- Two [A,B,H,W,1] arrays concatenated along the last axis, read at lane 1: the second. -/
theorem concat_lanes_odd (x₁ x₂ : (⟨5, ![A, B, H, W, 1]⟩ : Shape).Idx → α)
    (h : Shape.Concatenates [(⟨5, ![A, B, H, W, 1]⟩ : Shape), ⟨5, ![A, B, H, W, 1]⟩] ⟨5, ![A, B, H, W, 2]⟩ (4 : Fin 5))
    (n : Fin A) (ch : Fin B) (p : Fin H) (q : Fin W) (l : Fin 2) (hl : l.val = 1) :
    concatenate ⟨5, ![A, B, H, W, 2]⟩ (4 : Fin 5) [⟨⟨5, ![A, B, H, W, 1]⟩, x₁⟩, ⟨⟨5, ![A, B, H, W, 1]⟩, x₂⟩] h (ix5 n ch p q l)
      = x₂ (ix5 n ch p q 0) :=
  concatenate_pair_apply_right (4 : Fin 5) x₁ x₂ h (ix5 n ch p q l) rfl rfl (ix5 n ch p q 0)
    (fun (b : Fin 5) hb => match b, hb with
      | ⟨0, _⟩, _ => rfl
      | ⟨1, _⟩, _ => rfl
      | ⟨2, _⟩, _ => rfl
      | ⟨3, _⟩, _ => rfl
      | ⟨4, _⟩, hb => absurd rfl hb)
    (by show 0 + 1 = l.val; omega)

/-- [A,B,H,W,L] shape-cast to [A,B,H,1,W,L]: a unit axis in front of the last two. -/
theorem shapeCast_rowUnit_apply (y : (⟨5, ![A, B, H, W, L]⟩ : Shape).Idx → α)
    (h : (⟨5, ![A, B, H, W, L]⟩ : Shape).ShapeCasts ⟨6, ![A, B, H, 1, W, L]⟩)
    (n : Fin A) (ch : Fin B) (p : Fin H) (u : Fin 1) (q : Fin W) (l : Fin L) :
    shapeCast ⟨6, ![A, B, H, 1, W, L]⟩ y h (ix6 n ch p u q l) = y (ix5 n ch p q l) := by
  obtain rfl : u = 0 := Subsingleton.elim _ _
  refine shapeCast_apply y h _ _ ?_
  rw [Shape.rowMajor_val_five, Shape.rowMajor_val_six]
  show (((n.val * B + ch.val) * H + p.val) * W + q.val) * L + l.val
      = ((((n.val * B + ch.val) * H + p.val) * 1 + 0) * W + q.val) * L + l.val
  rw [Nat.mul_one, Nat.add_zero]

/-- [A,B,H,W,L] broadcast to [A,B,H,1,W,L] keeping its five axes: the same array with the unit axis put in. -/
theorem broadcast_rowUnit_apply (y : (⟨5, ![A, B, H, W, L]⟩ : Shape).Idx → α)
    (h : (⟨5, ![A, B, H, W, L]⟩ : Shape).BroadcastsInDim ⟨6, ![A, B, H, 1, W, L]⟩ (![0, 1, 2, 4, 5] : Fin 5 → Fin 6))
    (n : Fin A) (ch : Fin B) (p : Fin H) (u : Fin 1) (q : Fin W) (l : Fin L) :
    broadcastInDim ⟨6, ![A, B, H, 1, W, L]⟩ (![0, 1, 2, 4, 5] : Fin 5 → Fin 6) h y (ix6 n ch p u q l) = y (ix5 n ch p q l) :=
  broadcastInDim_apply _ h y _ _ (fun (a : Fin 5) => match a with
    | ⟨0, _⟩ => unit_or_self n
    | ⟨1, _⟩ => unit_or_self ch
    | ⟨2, _⟩ => unit_or_self p
    | ⟨3, _⟩ => unit_or_self q
    | ⟨4, _⟩ => unit_or_self l)

/-- Two [A,B,H,1,W,L] arrays concatenated along the unit axis, read at row parity 0: the first. -/
theorem concat_rows_even (y₁ y₂ : (⟨6, ![A, B, H, 1, W, L]⟩ : Shape).Idx → α)
    (h : Shape.Concatenates [(⟨6, ![A, B, H, 1, W, L]⟩ : Shape), ⟨6, ![A, B, H, 1, W, L]⟩] ⟨6, ![A, B, H, 2, W, L]⟩ (3 : Fin 6))
    (n : Fin A) (ch : Fin B) (p : Fin H) (v : Fin 2) (q : Fin W) (l : Fin L) (hv : v.val = 0) :
    concatenate ⟨6, ![A, B, H, 2, W, L]⟩ (3 : Fin 6) [⟨⟨6, ![A, B, H, 1, W, L]⟩, y₁⟩, ⟨⟨6, ![A, B, H, 1, W, L]⟩, y₂⟩] h (ix6 n ch p v q l)
      = y₁ (ix6 n ch p 0 q l) :=
  concatenate_pair_apply_left (3 : Fin 6) y₁ y₂ h (ix6 n ch p v q l) rfl (ix6 n ch p 0 q l) (fun (b : Fin 6) =>
    match b with
    | ⟨0, _⟩ => rfl
    | ⟨1, _⟩ => rfl
    | ⟨2, _⟩ => rfl
    | ⟨3, _⟩ => hv.symm
    | ⟨4, _⟩ => rfl
    | ⟨5, _⟩ => rfl)

/-- Two [A,B,H,1,W,L] arrays concatenated along the unit axis, read at row parity 1: the second. -/
theorem concat_rows_odd (y₁ y₂ : (⟨6, ![A, B, H, 1, W, L]⟩ : Shape).Idx → α)
    (h : Shape.Concatenates [(⟨6, ![A, B, H, 1, W, L]⟩ : Shape), ⟨6, ![A, B, H, 1, W, L]⟩] ⟨6, ![A, B, H, 2, W, L]⟩ (3 : Fin 6))
    (n : Fin A) (ch : Fin B) (p : Fin H) (v : Fin 2) (q : Fin W) (l : Fin L) (hv : v.val = 1) :
    concatenate ⟨6, ![A, B, H, 2, W, L]⟩ (3 : Fin 6) [⟨⟨6, ![A, B, H, 1, W, L]⟩, y₁⟩, ⟨⟨6, ![A, B, H, 1, W, L]⟩, y₂⟩] h (ix6 n ch p v q l)
      = y₂ (ix6 n ch p 0 q l) :=
  concatenate_pair_apply_right (3 : Fin 6) y₁ y₂ h (ix6 n ch p v q l) rfl rfl (ix6 n ch p 0 q l)
    (fun (b : Fin 6) hb => match b, hb with
      | ⟨0, _⟩, _ => rfl
      | ⟨1, _⟩, _ => rfl
      | ⟨2, _⟩, _ => rfl
      | ⟨3, _⟩, hb => absurd rfl hb
      | ⟨4, _⟩, _ => rfl
      | ⟨5, _⟩, _ => rfl)
    (by show 0 + 1 = v.val; omega)

/-- [A,B,H,2,W,2] flattened row-major to [A,B,2H,2W]: row r is (r / 2, r % 2), lane s is (s / 2, s % 2). -/
theorem shapeCast_rowsLanes_apply {H2 W2 : Nat} (hH : H2 = H * 2) (hW : W2 = W * 2)
    (z : (⟨6, ![A, B, H, 2, W, 2]⟩ : Shape).Idx → α)
    (h : (⟨6, ![A, B, H, 2, W, 2]⟩ : Shape).ShapeCasts ⟨4, ![A, B, H2, W2]⟩)
    (n : Fin A) (ch : Fin B) (r : Fin H2) (s : Fin W2) :
    shapeCast ⟨4, ![A, B, H2, W2]⟩ z h (ix4 n ch r s)
      = z (ix6 n ch (halfIdx hH r) (parity r) (halfIdx hW s) (parity s)) := by
  subst hH hW
  refine shapeCast_apply z h _ _ ?_
  rw [Shape.rowMajor_val_six, Shape.rowMajor_val_four]
  exact pos_split (n.val * B + ch.val) H W r.val s.val

/-! ## The interleaved array, and the two chains -/

/-- Entry (n, ch, r, s) of the two-by-two interleave of a, c (even rows) and b, d (odd rows). -/
def quadAt {H2 W2 : Nat} (hH : H2 = H * 2) (hW : W2 = W * 2) (a c b d : (⟨4, ![A, B, H, W]⟩ : Shape).Idx → α)
    (n : Fin A) (ch : Fin B) (r : Fin H2) (s : Fin W2) : α :=
  if r.val % 2 = 0 then
    if s.val % 2 = 0 then a (ix4 n ch (halfIdx hH r) (halfIdx hW s)) else c (ix4 n ch (halfIdx hH r) (halfIdx hW s))
  else
    if s.val % 2 = 0 then b (ix4 n ch (halfIdx hH r) (halfIdx hW s)) else d (ix4 n ch (halfIdx hH r) (halfIdx hW s))

/-- Two interleaves, of arrays of any two sets of extents, agree at two entries whose rows and lanes have the same
    values as soon as the four source entries agree: the choice among the four depends on the parities alone. -/
theorem quadAt_congr {A' B' H' W' H2 W2 H2' W2' : Nat} (hH : H2 = H * 2) (hW : W2 = W * 2) (hH' : H2' = H' * 2) (hW' : W2' = W' * 2)
    (a c b d : (⟨4, ![A, B, H, W]⟩ : Shape).Idx → α) (a' c' b' d' : (⟨4, ![A', B', H', W']⟩ : Shape).Idx → α)
    (n : Fin A) (ch : Fin B) (r : Fin H2) (s : Fin W2) (n' : Fin A') (ch' : Fin B') (r' : Fin H2') (s' : Fin W2')
    (hr : r.val = r'.val) (hs : s.val = s'.val)
    (ha : a (ix4 n ch (halfIdx hH r) (halfIdx hW s)) = a' (ix4 n' ch' (halfIdx hH' r') (halfIdx hW' s')))
    (hc : c (ix4 n ch (halfIdx hH r) (halfIdx hW s)) = c' (ix4 n' ch' (halfIdx hH' r') (halfIdx hW' s')))
    (hb : b (ix4 n ch (halfIdx hH r) (halfIdx hW s)) = b' (ix4 n' ch' (halfIdx hH' r') (halfIdx hW' s')))
    (hd : d (ix4 n ch (halfIdx hH r) (halfIdx hW s)) = d' (ix4 n' ch' (halfIdx hH' r') (halfIdx hW' s'))) :
    quadAt hH hW a c b d n ch r s = quadAt hH' hW' a' c' b' d' n' ch' r' s' := by
  unfold quadAt
  rw [hr, hs, ha, hc, hb, hd]

/-- The shapes of the chain, by their extents. -/
abbrev Q4 (A B H W : Nat) : Shape := ⟨4, ![A, B, H, W]⟩
abbrev P1 (A B H W : Nat) : Shape := ⟨5, ![A, B, H, W, 1]⟩
abbrev P2 (A B H W : Nat) : Shape := ⟨5, ![A, B, H, W, 2]⟩
abbrev U1 (A B H W : Nat) : Shape := ⟨6, ![A, B, H, 1, W, 2]⟩
abbrev U2 (A B H W : Nat) : Shape := ⟨6, ![A, B, H, 2, W, 2]⟩
abbrev T4 (A B H2 W2 : Nat) : Shape := ⟨4, ![A, B, H2, W2]⟩

/-- The chain with unit axes added by shape casts, at an index. -/
theorem castChain_apply {H2 W2 : Nat} (hH : H2 = H * 2) (hW : W2 = W * 2) (a c b d : (Q4 A B H W).Idx → α)
    (h45 : (Q4 A B H W).ShapeCasts (P1 A B H W)) (hc5 : Shape.Concatenates [P1 A B H W, P1 A B H W] (P2 A B H W) (4 : Fin 5))
    (h56 : (P2 A B H W).ShapeCasts (U1 A B H W)) (hc6 : Shape.Concatenates [U1 A B H W, U1 A B H W] (U2 A B H W) (3 : Fin 6))
    (h64 : (U2 A B H W).ShapeCasts (T4 A B H2 W2))
    (n : Fin A) (ch : Fin B) (r : Fin H2) (s : Fin W2) :
    shapeCast (T4 A B H2 W2) (concatenate (U2 A B H W) (3 : Fin 6)
        [⟨U1 A B H W, shapeCast (U1 A B H W) (concatenate (P2 A B H W) (4 : Fin 5) [⟨P1 A B H W, shapeCast (P1 A B H W) a h45⟩, ⟨P1 A B H W, shapeCast (P1 A B H W) c h45⟩] hc5) h56⟩,
         ⟨U1 A B H W, shapeCast (U1 A B H W) (concatenate (P2 A B H W) (4 : Fin 5) [⟨P1 A B H W, shapeCast (P1 A B H W) b h45⟩, ⟨P1 A B H W, shapeCast (P1 A B H W) d h45⟩] hc5) h56⟩] hc6) h64
        (ix4 n ch r s)
      = quadAt hH hW a c b d n ch r s := by
  refine (shapeCast_rowsLanes_apply hH hW _ h64 n ch r s).trans ?_
  unfold quadAt
  by_cases hr : r.val % 2 = 0
  · rw [if_pos hr]
    refine (concat_rows_even _ _ hc6 n ch _ _ _ _ hr).trans ?_
    refine (shapeCast_rowUnit_apply _ h56 n ch _ 0 _ _).trans ?_
    by_cases hs : s.val % 2 = 0
    · rw [if_pos hs]
      exact (concat_lanes_even _ _ hc5 n ch _ _ _ hs).trans (shapeCast_laneUnit_apply a h45 n ch _ _ 0)
    · rw [if_neg hs]
      have hs1 : (parity s).val = 1 := by show s.val % 2 = 1; omega
      exact (concat_lanes_odd _ _ hc5 n ch _ _ _ hs1).trans (shapeCast_laneUnit_apply c h45 n ch _ _ 0)
  · rw [if_neg hr]
    have hr1 : (parity r).val = 1 := by show r.val % 2 = 1; omega
    refine (concat_rows_odd _ _ hc6 n ch _ _ _ _ hr1).trans ?_
    refine (shapeCast_rowUnit_apply _ h56 n ch _ 0 _ _).trans ?_
    by_cases hs : s.val % 2 = 0
    · rw [if_pos hs]
      exact (concat_lanes_even _ _ hc5 n ch _ _ _ hs).trans (shapeCast_laneUnit_apply b h45 n ch _ _ 0)
    · rw [if_neg hs]
      have hs1 : (parity s).val = 1 := by show s.val % 2 = 1; omega
      exact (concat_lanes_odd _ _ hc5 n ch _ _ _ hs1).trans (shapeCast_laneUnit_apply d h45 n ch _ _ 0)

/-- The chain with unit axes added by broadcasts that keep every axis, at an index. -/
theorem broadcastChain_apply {H2 W2 : Nat} (hH : H2 = H * 2) (hW : W2 = W * 2) (a c b d : (Q4 A B H W).Idx → α)
    (hb45 : (Q4 A B H W).BroadcastsInDim (P1 A B H W) (![0, 1, 2, 3] : Fin 4 → Fin 5)) (hc5 : Shape.Concatenates [P1 A B H W, P1 A B H W] (P2 A B H W) (4 : Fin 5))
    (hb56 : (P2 A B H W).BroadcastsInDim (U1 A B H W) (![0, 1, 2, 4, 5] : Fin 5 → Fin 6)) (hc6 : Shape.Concatenates [U1 A B H W, U1 A B H W] (U2 A B H W) (3 : Fin 6))
    (h64 : (U2 A B H W).ShapeCasts (T4 A B H2 W2))
    (n : Fin A) (ch : Fin B) (r : Fin H2) (s : Fin W2) :
    shapeCast (T4 A B H2 W2) (concatenate (U2 A B H W) (3 : Fin 6)
        [⟨U1 A B H W, broadcastInDim (U1 A B H W) (![0, 1, 2, 4, 5] : Fin 5 → Fin 6) hb56 (concatenate (P2 A B H W) (4 : Fin 5)
            [⟨P1 A B H W, broadcastInDim (P1 A B H W) (![0, 1, 2, 3] : Fin 4 → Fin 5) hb45 a⟩, ⟨P1 A B H W, broadcastInDim (P1 A B H W) (![0, 1, 2, 3] : Fin 4 → Fin 5) hb45 c⟩] hc5)⟩,
         ⟨U1 A B H W, broadcastInDim (U1 A B H W) (![0, 1, 2, 4, 5] : Fin 5 → Fin 6) hb56 (concatenate (P2 A B H W) (4 : Fin 5)
            [⟨P1 A B H W, broadcastInDim (P1 A B H W) (![0, 1, 2, 3] : Fin 4 → Fin 5) hb45 b⟩, ⟨P1 A B H W, broadcastInDim (P1 A B H W) (![0, 1, 2, 3] : Fin 4 → Fin 5) hb45 d⟩] hc5)⟩] hc6) h64
        (ix4 n ch r s)
      = quadAt hH hW a c b d n ch r s := by
  refine (shapeCast_rowsLanes_apply hH hW _ h64 n ch r s).trans ?_
  unfold quadAt
  by_cases hr : r.val % 2 = 0
  · rw [if_pos hr]
    refine (concat_rows_even _ _ hc6 n ch _ _ _ _ hr).trans ?_
    refine (broadcast_rowUnit_apply _ hb56 n ch _ 0 _ _).trans ?_
    by_cases hs : s.val % 2 = 0
    · rw [if_pos hs]
      exact (concat_lanes_even _ _ hc5 n ch _ _ _ hs).trans (broadcast_laneUnit_apply a hb45 n ch _ _ 0)
    · rw [if_neg hs]
      have hs1 : (parity s).val = 1 := by show s.val % 2 = 1; omega
      exact (concat_lanes_odd _ _ hc5 n ch _ _ _ hs1).trans (broadcast_laneUnit_apply c hb45 n ch _ _ 0)
  · rw [if_neg hr]
    have hr1 : (parity r).val = 1 := by show r.val % 2 = 1; omega
    refine (concat_rows_odd _ _ hc6 n ch _ _ _ _ hr1).trans ?_
    refine (broadcast_rowUnit_apply _ hb56 n ch _ 0 _ _).trans ?_
    by_cases hs : s.val % 2 = 0
    · rw [if_pos hs]
      exact (concat_lanes_even _ _ hc5 n ch _ _ _ hs).trans (broadcast_laneUnit_apply b hb45 n ch _ _ 0)
    · rw [if_neg hs]
      have hs1 : (parity s).val = 1 := by show s.val % 2 = 1; omega
      exact (concat_lanes_odd _ _ hc5 n ch _ _ _ hs1).trans (broadcast_laneUnit_apply d hb45 n ch _ _ 0)

end Cert.Lib.QuadInterleave
-- ==== Proof.Haar.lean ====
/-
  The inverse Haar transform of four subbands, as one function of the four arrays.

  From subbands x0, x1, x2, x3 of shape [A, B, H, W] the transform makes four combinations, entry by entry, each halved:
      a = (x0 - x1 - x2 + x3) / 2        c = (x0 + x1 - x2 - x3) / 2
      b = (x0 - x1 + x2 - x3) / 2        d = (x0 + x1 + x2 + x3) / 2
  (the sums taken left to right, the half a product with the constant whose word is 0x3F000000), and interleaves them two
  by two into an array of shape [A, B, 2H, 2W]: entry (n, ch, r, s) is a, c, b or d at (n, ch, r / 2, s / 2) according to
  the parities of r and s (even rows alternate a and c, odd rows alternate b and d). Stated for any float instance; no
  law of arithmetic is used anywhere, only which entry is read.
-/
import proofs.«150570_j65790309040483_2_alg».proof.Proof.LibQuadInterleave
import Idealize.ShloMosaic.PureOps.Float

namespace Cert.Haar

open Idealize.ShloMosaic Idealize.ShloMosaic.ValueIdx Cert.Lib.QuadInterleave

variable {F : FTy → Type} [FloatOps F] {A B H W : Nat}

/-- One half, as the constant both programs spell. -/
def half : F .f32 := FloatOps.ofBits .f32 0x3F000000#32

/-- (x0 - x1 - x2 + x3) / 2: even row, even lane. -/
def combA (x0 x1 x2 x3 : F .f32) : F .f32 :=
  FloatOps.mulf (FloatOps.addf (FloatOps.subf (FloatOps.subf x0 x1) x2) x3) half
/-- (x0 - x1 + x2 - x3) / 2: odd row, even lane. -/
def combB (x0 x1 x2 x3 : F .f32) : F .f32 :=
  FloatOps.mulf (FloatOps.subf (FloatOps.addf (FloatOps.subf x0 x1) x2) x3) half
/-- (x0 + x1 - x2 - x3) / 2: even row, odd lane. -/
def combC (x0 x1 x2 x3 : F .f32) : F .f32 :=
  FloatOps.mulf (FloatOps.subf (FloatOps.subf (FloatOps.addf x0 x1) x2) x3) half
/-- (x0 + x1 + x2 + x3) / 2: odd row, odd lane. -/
def combD (x0 x1 x2 x3 : F .f32) : F .f32 :=
  FloatOps.mulf (FloatOps.addf (FloatOps.addf (FloatOps.addf x0 x1) x2) x3) half

/-- The four combinations as arrays. -/
def arrA (x0 x1 x2 x3 : (⟨4, ![A, B, H, W]⟩ : Shape).Idx → F .f32) : (⟨4, ![A, B, H, W]⟩ : Shape).Idx → F .f32 :=
  fun k => combA (x0 k) (x1 k) (x2 k) (x3 k)
def arrB (x0 x1 x2 x3 : (⟨4, ![A, B, H, W]⟩ : Shape).Idx → F .f32) : (⟨4, ![A, B, H, W]⟩ : Shape).Idx → F .f32 :=
  fun k => combB (x0 k) (x1 k) (x2 k) (x3 k)
def arrC (x0 x1 x2 x3 : (⟨4, ![A, B, H, W]⟩ : Shape).Idx → F .f32) : (⟨4, ![A, B, H, W]⟩ : Shape).Idx → F .f32 :=
  fun k => combC (x0 k) (x1 k) (x2 k) (x3 k)
def arrD (x0 x1 x2 x3 : (⟨4, ![A, B, H, W]⟩ : Shape).Idx → F .f32) : (⟨4, ![A, B, H, W]⟩ : Shape).Idx → F .f32 :=
  fun k => combD (x0 k) (x1 k) (x2 k) (x3 k)

/-- Entry (n, ch, r, s) of the transform. -/
def idwtAt {H2 W2 : Nat} (hH : H2 = H * 2) (hW : W2 = W * 2) (x0 x1 x2 x3 : (⟨4, ![A, B, H, W]⟩ : Shape).Idx → F .f32)
    (n : Fin A) (ch : Fin B) (r : Fin H2) (s : Fin W2) : F .f32 :=
  quadAt hH hW (arrA x0 x1 x2 x3) (arrC x0 x1 x2 x3) (arrB x0 x1 x2 x3) (arrD x0 x1 x2 x3) n ch r s

/-- The transform: an array of shape [A, B, 2H, 2W]. -/
def idwt {H2 W2 : Nat} (hH : H2 = H * 2) (hW : W2 = W * 2) (x0 x1 x2 x3 : (⟨4, ![A, B, H, W]⟩ : Shape).Idx → F .f32) :
    (⟨4, ![A, B, H2, W2]⟩ : Shape).Idx → F .f32 :=
  fun i => idwtAt hH hW x0 x1 x2 x3 (i 0) (i 1) (i 2) (i 3)

/-- The transform of a block of the subbands, at an entry of the block, is the transform of the whole subbands at the
    entry of the whole array with the same row and lane, when the block's four source entries are the arrays' own. -/
theorem idwtAt_congr {A' B' H' W' H2 W2 H2' W2' : Nat} (hH : H2 = H * 2) (hW : W2 = W * 2) (hH' : H2' = H' * 2) (hW' : W2' = W' * 2)
    (v0 v1 v2 v3 : (⟨4, ![A, B, H, W]⟩ : Shape).Idx → F .f32) (x0 x1 x2 x3 : (⟨4, ![A', B', H', W']⟩ : Shape).Idx → F .f32)
    (n : Fin A) (ch : Fin B) (r : Fin H2) (s : Fin W2) (n' : Fin A') (ch' : Fin B') (r' : Fin H2') (s' : Fin W2')
    (hr : r.val = r'.val) (hs : s.val = s'.val)
    (h0 : v0 (ix4 n ch (halfIdx hH r) (halfIdx hW s)) = x0 (ix4 n' ch' (halfIdx hH' r') (halfIdx hW' s')))
    (h1 : v1 (ix4 n ch (halfIdx hH r) (halfIdx hW s)) = x1 (ix4 n' ch' (halfIdx hH' r') (halfIdx hW' s')))
    (h2 : v2 (ix4 n ch (halfIdx hH r) (halfIdx hW s)) = x2 (ix4 n' ch' (halfIdx hH' r') (halfIdx hW' s')))
    (h3 : v3 (ix4 n ch (halfIdx hH r) (halfIdx hW s)) = x3 (ix4 n' ch' (halfIdx hH' r') (halfIdx hW' s'))) :
    idwtAt hH hW v0 v1 v2 v3 n ch r s = idwtAt hH' hW' x0 x1 x2 x3 n' ch' r' s' := by
  unfold idwtAt
  refine quadAt_congr hH hW hH' hW' _ _ _ _ _ _ _ _ n ch r s n' ch' r' s' hr hs ?_ ?_ ?_ ?_
  · show combA _ _ _ _ = combA _ _ _ _
    rw [h0, h1, h2, h3]
  · show combC _ _ _ _ = combC _ _ _ _
    rw [h0, h1, h2, h3]
  · show combB _ _ _ _ = combB _ _ _ _
    rw [h0, h1, h2, h3]
  · show combD _ _ _ _ = combD _ _ _ _
    rw [h0, h1, h2, h3]

end Cert.Haar
-- ==== Proof.Payload.lean ====
/-
  What the kernel's body stores, entry by entry.

  At one grid point the body loads a block [1, 4, 256, 256] of each of the four subbands, forms the four halved
  combinations a, b, c, d of the blocks entry by entry, and stores their two-by-two interleave, a block [1, 4, 512, 512]:
  the unit axes are added by shape casts, a and c are joined lane by lane, b and d likewise, the two are joined row by
  row, and the result is flattened. So the stored block is the inverse Haar transform of the four loaded blocks.
-/
import proofs.«150570_j65790309040483_2_alg».proof.Proof.Gen.KernelIdeal.Skeleton
import proofs.«150570_j65790309040483_2_alg».proof.Proof.Haar

noncomputable section

namespace Cert.Haar.Body

open Idealize.ShloMosaic Idealize.ShloMosaic.ValueIdx Cert.Lib.QuadInterleave Cert.Haar
open Cert.KernelIdeal Cert.KernelIdeal.Gen

variable {F : FTy → Type} [FloatOps F]

/-- The stored block at (n, ch, r, s) is the transform of the loaded blocks there. -/
theorem payload_apply (v0 v1 v2 v3 : Vec F S1x4x256x256 .f32) (n : Fin 1) (ch : Fin 4) (r s : Fin 512) :
    k0_pay1 v0 v1 v2 v3 (ix4 n ch r s) = idwtAt (H := 256) (W := 256) (H2 := 512) (W2 := 512) rfl rfl v0 v1 v2 v3 n ch r s := by
  unfold k0_pay1
  exact castChain_apply (A := 1) (B := 4) (H := 256) (W := 256) (H2 := 512) (W2 := 512) rfl rfl _ _ _ _ _ _ _ _ _ n ch r s

/-- The stored block at an entry y, against the transform of whole arrays x0 … x3 at an entry i with the same row and
    lane, when the loaded blocks' source entries are the arrays' own. -/
theorem payload_eq_idwt (x0 x1 x2 x3 : (⟨4, ![8, 64, 256, 256]⟩ : Shape).Idx → F .f32) (v0 v1 v2 v3 : Vec F S1x4x256x256 .f32)
    (y : (⟨4, ![1, 4, 512, 512]⟩ : Shape).Idx) (i : (⟨4, ![8, 64, 512, 512]⟩ : Shape).Idx)
    (hr : (y 2).val = (i 2).val) (hs : (y 3).val = (i 3).val)
    (h0 : v0 (ix4 (y 0) (y 1) (halfIdx (H := 256) rfl (y 2)) (halfIdx (H := 256) rfl (y 3)))
        = x0 (ix4 (i 0) (i 1) (halfIdx (H := 256) rfl (i 2)) (halfIdx (H := 256) rfl (i 3))))
    (h1 : v1 (ix4 (y 0) (y 1) (halfIdx (H := 256) rfl (y 2)) (halfIdx (H := 256) rfl (y 3)))
        = x1 (ix4 (i 0) (i 1) (halfIdx (H := 256) rfl (i 2)) (halfIdx (H := 256) rfl (i 3))))
    (h2 : v2 (ix4 (y 0) (y 1) (halfIdx (H := 256) rfl (y 2)) (halfIdx (H := 256) rfl (y 3)))
        = x2 (ix4 (i 0) (i 1) (halfIdx (H := 256) rfl (i 2)) (halfIdx (H := 256) rfl (i 3))))
    (h3 : v3 (ix4 (y 0) (y 1) (halfIdx (H := 256) rfl (y 2)) (halfIdx (H := 256) rfl (y 3)))
        = x3 (ix4 (i 0) (i 1) (halfIdx (H := 256) rfl (i 2)) (halfIdx (H := 256) rfl (i 3)))) :
    k0_pay1 v0 v1 v2 v3 y = idwt (H := 256) (W := 256) (H2 := 512) (W2 := 512) rfl rfl x0 x1 x2 x3 i := by
  refine ((congrArg (k0_pay1 v0 v1 v2 v3) (eq_ix4 y)).trans (payload_apply v0 v1 v2 v3 (y 0) (y 1) (y 2) (y 3))).trans ?_
  exact idwtAt_congr rfl rfl rfl rfl v0 v1 v2 v3 x0 x1 x2 x3 (y 0) (y 1) (y 2) (y 3) (i 0) (i 1) (i 2) (i 3) hr hs h0 h1 h2 h3

end Cert.Haar.Body

end
-- ==== Proof.KernelValue.lean ====
/-
  The kernel's result array is the inverse Haar transform of its four argument arrays.

  The grid has 8 x 16 points. At point (g0, g1) each subband's block is [1, 4, 256, 256] at block index (g0, g1, 0, 0) — batch
  entry g0, channels 4*g1 … 4*g1 + 3, every row and lane — and the result's block is [1, 4, 512, 512] at the same block
  index. Entry (n, ch, r, s) of a result block therefore sits at (g0 + n, 4*g1 + ch, r, s) of the result array, and the
  subband entries it is computed from, (n, ch, r / 2, s / 2) of the loaded blocks, sit at (g0 + n, 4*g1 + ch, r / 2, s / 2)
  of the subband arrays: the same batch entry and channel, half the row and half the lane of the result's entry. So what
  each point writes back is its block of the transform of the whole arrays. The 128 blocks tile the result array (entry
  (i0, i1, i2, i3) is in the block of point (i0, i1 / 4)), so after the run the array is the transform.
-/
import proofs.«150570_j65790309040483_2_alg».proof.Proof.Gen.KernelIdeal.Value
import proofs.«150570_j65790309040483_2_alg».proof.Proof.Payload

noncomputable section

namespace Cert.Haar.Blocks

open Cert.KernelIdeal Cert.KernelIdeal.Gen Idealize.ShloMosaic Idealize.ShloMosaic.TcCoe Idealize.SL.Sem
open Idealize.ShloMosaic.ValueIdx Cert.Lib.QuadInterleave Cert.Haar Cert.Haar.Body
open Idealize.ShloMosaic.Pipeline (Dat)

variable {F : FTy → Type} [FloatOps F]
variable (m : (ℓ : Loc nD τ sig) → Buf (Elt F) ℓ) (ρ : Dev nD → PrngReg)

theorem offsets_zero : (![0, 0, 0, 0] : Fin 4 → Nat) = fun _ => 0 := funext fun a => by fin_cases a <;> rfl

/-- The result array as one function of the argument arrays: their inverse Haar transform. -/
abbrev transformOf (x0 x1 x2 x3 : S8x64x256x256.Idx → Elt F .f32) : S8x64x512x512.Idx → Elt F .f32 :=
  idwt (H := 256) (W := 256) (H2 := 512) (W2 := 512) rfl rfl x0 x1 x2 x3

/-- The block index maps, decided over the grid: every subband block moves with the result's block on the batch and
    channel axes, and no block index moves along rows or lanes. -/
theorem block_indices : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (2 : Fin 4) = 0 ∧ win0_4.index t (3 : Fin 4) = 0 :=
  (by decide +kernel : ∀ t : Fin grid0.N, _)

/-- Every pair (batch entry, group of four channels) is some point's block index. -/
theorem block_onto : ∀ (q0 : Fin 8) (q1 : Fin 16), ∃ t : Fin cfg0.N, win0_4.index t = ![q0.val, q1.val, 0, 0] :=
  (by decide +kernel : ∀ (q0 : Fin 8) (q1 : Fin 16), ∃ t : Fin grid0.N, win0_4.index t = ![q0.val, q1.val, 0, 0])

/-- What point t writes back is block t of the transform of the argument arrays as the region finds them. -/
theorem flushed_eq (c : Dev nD) (t : Fin cfg0.N) :
    (dats m 0 c).flushed 4 t
      = ((cfg0.win 4).blk t).view.read (Elt F) (transformOf (V m c main_arg0) (V m c main_arg1) (V m c main_arg2) (V m c main_arg3)) := by
  rw [Cert.KernelIdeal.Value.flushed4]
  unfold out0_4
  rw [View.canon_unit_zero offsets_zero]
  simp only [View.ld_unit_zero (S := S1x4x256x256) offsets_zero]
  obtain ⟨e00, e01, e02, e03, e10, e11, e12, e13, e20, e21, e22, e23, e30, e31, e32, e33, e42, e43⟩ := block_indices t
  funext y
  show k0_pay1 (iblk m c 0 t) (iblk m c 1 t) (iblk m c 2 t) (iblk m c 3 t) y
      = transformOf (V m c main_arg0) (V m c main_arg1) (V m c main_arg2) (V m c main_arg3) (((cfg0.win 4).blk t).view.emb y)
  have hy2 : (y 2).val < 512 := (y 2).isLt
  have hy3 : (y 3).val < 512 := (y 3).isLt
  refine payload_eq_idwt (V m c main_arg0) (V m c main_arg1) (V m c main_arg2) (V m c main_arg3) _ _ _ _ y _ ?_ ?_ ?_ ?_ ?_ ?_
  · show (y 2).val = win0_4.index t (2 : Fin 4) * 512 + 1 * (y 2).val
    omega
  · show (y 3).val = win0_4.index t (3 : Fin 4) * 512 + 1 * (y 3).val
    omega
  · show V m c main_arg0 (((cfg0.win 0).blk t).view.emb (ix4 (y 0) (y 1) (halfIdx (H := 256) rfl (y 2)) (halfIdx (H := 256) rfl (y 3))))
        = V m c main_arg0 _
    refine congrArg _ (funext fun a => Fin.ext ?_)
    match a with
    | ⟨0, _⟩ => show win0_0.index t (0 : Fin 4) * 1 + 1 * (y 0).val = win0_4.index t (0 : Fin 4) * 1 + 1 * (y 0).val; omega
    | ⟨1, _⟩ => show win0_0.index t (1 : Fin 4) * 4 + 1 * (y 1).val = win0_4.index t (1 : Fin 4) * 4 + 1 * (y 1).val; omega
    | ⟨2, _⟩ => show win0_0.index t (2 : Fin 4) * 256 + 1 * ((y 2).val / 2) = (win0_4.index t (2 : Fin 4) * 512 + 1 * (y 2).val) / 2; omega
    | ⟨3, _⟩ => show win0_0.index t (3 : Fin 4) * 256 + 1 * ((y 3).val / 2) = (win0_4.index t (3 : Fin 4) * 512 + 1 * (y 3).val) / 2; omega
  · show V m c main_arg1 (((cfg0.win 1).blk t).view.emb (ix4 (y 0) (y 1) (halfIdx (H := 256) rfl (y 2)) (halfIdx (H := 256) rfl (y 3))))
        = V m c main_arg1 _
    refine congrArg _ (funext fun a => Fin.ext ?_)
    match a with
    | ⟨0, _⟩ => show win0_1.index t (0 : Fin 4) * 1 + 1 * (y 0).val = win0_4.index t (0 : Fin 4) * 1 + 1 * (y 0).val; omega
    | ⟨1, _⟩ => show win0_1.index t (1 : Fin 4) * 4 + 1 * (y 1).val = win0_4.index t (1 : Fin 4) * 4 + 1 * (y 1).val; omega
    | ⟨2, _⟩ => show win0_1.index t (2 : Fin 4) * 256 + 1 * ((y 2).val / 2) = (win0_4.index t (2 : Fin 4) * 512 + 1 * (y 2).val) / 2; omega
    | ⟨3, _⟩ => show win0_1.index t (3 : Fin 4) * 256 + 1 * ((y 3).val / 2) = (win0_4.index t (3 : Fin 4) * 512 + 1 * (y 3).val) / 2; omega
  · show V m c main_arg2 (((cfg0.win 2).blk t).view.emb (ix4 (y 0) (y 1) (halfIdx (H := 256) rfl (y 2)) (halfIdx (H := 256) rfl (y 3))))
        = V m c main_arg2 _
    refine congrArg _ (funext fun a => Fin.ext ?_)
    match a with
    | ⟨0, _⟩ => show win0_2.index t (0 : Fin 4) * 1 + 1 * (y 0).val = win0_4.index t (0 : Fin 4) * 1 + 1 * (y 0).val; omega
    | ⟨1, _⟩ => show win0_2.index t (1 : Fin 4) * 4 + 1 * (y 1).val = win0_4.index t (1 : Fin 4) * 4 + 1 * (y 1).val; omega
    | ⟨2, _⟩ => show win0_2.index t (2 : Fin 4) * 256 + 1 * ((y 2).val / 2) = (win0_4.index t (2 : Fin 4) * 512 + 1 * (y 2).val) / 2; omega
    | ⟨3, _⟩ => show win0_2.index t (3 : Fin 4) * 256 + 1 * ((y 3).val / 2) = (win0_4.index t (3 : Fin 4) * 512 + 1 * (y 3).val) / 2; omega
  · show V m c main_arg3 (((cfg0.win 3).blk t).view.emb (ix4 (y 0) (y 1) (halfIdx (H := 256) rfl (y 2)) (halfIdx (H := 256) rfl (y 3))))
        = V m c main_arg3 _
    refine congrArg _ (funext fun a => Fin.ext ?_)
    match a with
    | ⟨0, _⟩ => show win0_3.index t (0 : Fin 4) * 1 + 1 * (y 0).val = win0_4.index t (0 : Fin 4) * 1 + 1 * (y 0).val; omega
    | ⟨1, _⟩ => show win0_3.index t (1 : Fin 4) * 4 + 1 * (y 1).val = win0_4.index t (1 : Fin 4) * 4 + 1 * (y 1).val; omega
    | ⟨2, _⟩ => show win0_3.index t (2 : Fin 4) * 256 + 1 * ((y 2).val / 2) = (win0_4.index t (2 : Fin 4) * 512 + 1 * (y 2).val) / 2; omega
    | ⟨3, _⟩ => show win0_3.index t (3 : Fin 4) * 256 + 1 * ((y 3).val / 2) = (win0_4.index t (3 : Fin 4) * 512 + 1 * (y 3).val) / 2; omega

/-- An entry of the result array is in point t's block iff each coordinate is in the block's range on its axis. -/
theorem mem_block (t : Fin cfg0.N) (i : S8x64x512x512.Idx) :
    i ∈ ((cfg0.win 4).blk t).view.set ↔ ∀ a : Fin 4, win0_4.index t a * S1x4x512x512.size a ≤ (i a).val ∧ (i a).val < win0_4.index t a * S1x4x512x512.size a + S1x4x512x512.size a := by
  show i ∈ ((View.whole main_v0).slice (win0_4.rect t)).set ↔ _
  rw [View.set_slice_whole, Rect.mem_set_unit]
  exact Iff.rfl

/-- Every entry of the result array is in some point's block: entry (i0, i1, i2, i3) in that of point (i0, i1 / 4). -/
theorem cover (i : S8x64x512x512.Idx) : ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 512 := (i 2).isLt
  have hi3 : (i 3).val < 512 := (i 3).isLt
  obtain ⟨t, ht⟩ := block_onto ⟨(i 0).val, hi0⟩ ⟨(i 1).val / 4, by omega⟩
  have q0 : win0_4.index t (0 : Fin 4) = (i 0).val := congrFun ht 0
  have q1 : win0_4.index t (1 : Fin 4) = (i 1).val / 4 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 512 ≤ (i 2).val ∧ (i 2).val < win0_4.index t (2 : Fin 4) * 512 + 512; omega
  | ⟨3, _⟩ => show win0_4.index t (3 : Fin 4) * 512 ≤ (i 3).val ∧ (i 3).val < win0_4.index t (3 : Fin 4) * 512 + 512; omega

/-- The result array after the run: the transform of the argument arrays. -/
theorem final (c : Dev nD) :
    (dats m 0 c).arrAt 4 cfg0.N
      = transformOf (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) (fun i => cover i)

/-- Every weakly fair execution of the kernel's program terminates with the result array at the transform of the
    argument arrays, which end unchanged. -/
theorem run : θ_run defs (onTc (τ := τ) (main (F := F))) ⟨m, fun _ => 0, ρ⟩ fun r => ∀ c : Dev nD,
      r.2.mem ((c : Thread nD τ).loc main_v0)
        = transformOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Haar.Blocks

end
-- ==== Proof.RefValue.lean ====
/-
  The reference's result is the inverse Haar transform of its four arguments.

  The reference forms the four halved combinations of the whole subbands [8, 64, 256, 256] — the half a rank-0 constant
  broadcast to the subbands' shape — and interleaves them with the unit axes added by broadcasts that keep every axis;
  its result [8, 64, 512, 512] read at an entry is the combination the parities of row and lane select, at half the row
  and half the lane.
-/
import proofs.«150570_j65790309040483_2_alg».proof.Proof.Gen.ReferenceIdeal.Read
import proofs.«150570_j65790309040483_2_alg».proof.Proof.Haar
import Idealize.ShloMosaic.Lib.IdealHost

noncomputable section

namespace Cert.Haar.Reference

open Idealize.ShloMosaic Idealize.ShloMosaic.ValueIdx Cert.Lib.QuadInterleave Cert.Haar
open Cert.ReferenceIdeal Cert.ReferenceIdeal.Gen Cert.ReferenceIdeal.Read

variable {F : FTy → Type} [FloatOps F]

/-- (x0 - x1 - x2 + x3) / 2 as the reference computes it. -/
theorem even_even (x0 x1 x2 x3 : (⟨S8x64x256x256, .f32⟩ : BufTy).Contents (Elt F)) :
    val_main_v4 (F := F) x0 x1 x2 x3 = arrA x0 x1 x2 x3 := by
  funext k
  show FloatOps.mulf (FloatOps.addf (FloatOps.subf (FloatOps.subf (x0 k) (x1 k)) (x2 k)) (x3 k)) (val_main_v3 (F := F) k) = _
  rw [val_main_v3_apply]
  rfl

/-- (x0 - x1 + x2 - x3) / 2 as the reference computes it. -/
theorem odd_even (x0 x1 x2 x3 : (⟨S8x64x256x256, .f32⟩ : BufTy).Contents (Elt F)) :
    val_main_v9 (F := F) x0 x1 x2 x3 = arrB x0 x1 x2 x3 := by
  funext k
  show FloatOps.mulf (FloatOps.subf (FloatOps.addf (FloatOps.subf (x0 k) (x1 k)) (x2 k)) (x3 k)) (val_main_v8 (F := F) k) = _
  rw [val_main_v8_apply]
  rfl

/-- (x0 + x1 - x2 - x3) / 2 as the reference computes it. -/
theorem even_odd (x0 x1 x2 x3 : (⟨S8x64x256x256, .f32⟩ : BufTy).Contents (Elt F)) :
    val_main_v14 (F := F) x0 x1 x2 x3 = arrC x0 x1 x2 x3 := by
  funext k
  show FloatOps.mulf (FloatOps.subf (FloatOps.subf (FloatOps.addf (x0 k) (x1 k)) (x2 k)) (x3 k)) (val_main_v13 (F := F) k) = _
  rw [val_main_v13_apply]
  rfl

/-- (x0 + x1 + x2 + x3) / 2 as the reference computes it. -/
theorem odd_odd (x0 x1 x2 x3 : (⟨S8x64x256x256, .f32⟩ : BufTy).Contents (Elt F)) :
    val_main_v19 (F := F) x0 x1 x2 x3 = arrD x0 x1 x2 x3 := by
  funext k
  show FloatOps.mulf (FloatOps.addf (FloatOps.addf (FloatOps.addf (x0 k) (x1 k)) (x2 k)) (x3 k)) (val_main_v18 (F := F) k) = _
  rw [val_main_v18_apply]
  rfl

/-- The reference's result is the transform of its arguments. -/
theorem result_eq (x0 x1 x2 x3 : (⟨S8x64x256x256, .f32⟩ : BufTy).Contents (Elt F)) :
    val_main_v29 (F := F) x0 x1 x2 x3 = idwt (H := 256) (W := 256) (H2 := 512) (W2 := 512) rfl rfl x0 x1 x2 x3 := by
  funext i
  obtain ⟨n, ch, r, s, rfl⟩ : ∃ (n : Fin 8) (ch : Fin 64) (r s : Fin 512), i = ix4 n ch r s := ⟨i 0, i 1, i 2, i 3, eq_ix4 i⟩
  show val_main_v29 (F := F) x0 x1 x2 x3 (ix4 n ch r s) = idwtAt rfl rfl x0 x1 x2 x3 n ch r s
  unfold idwtAt
  rw [← even_even, ← odd_even, ← even_odd, ← odd_odd]
  unfold val_main_v29 val_main_v28 val_main_v26 val_main_v27 val_main_v22 val_main_v25 val_main_v20 val_main_v21 val_main_v23 val_main_v24
  exact broadcastChain_apply (A := 8) (B := 64) (H := 256) (W := 256) (H2 := 512) (W2 := 512) rfl rfl _ _ _ _ _ _ _ _ _ n ch r s

end Cert.Haar.Reference

end
-- ==== Proof.lean ====
/-
  The inverse Haar transform kernel against its reference.

  Both programs take four subbands x0, x1, x2, x3 of shape [8, 64, 256, 256] and return an array of shape
  [8, 64, 512, 512]. Both form, entry by entry and in the same order of operations, the four halved combinations
      a = (x0 - x1 - x2 + x3) / 2        c = (x0 + x1 - x2 - x3) / 2
      b = (x0 - x1 + x2 - x3) / 2        d = (x0 + x1 + x2 + x3) / 2
  and interleave them two by two: result entry (n, ch, r, s) is a, c, b or d at (n, ch, r / 2, s / 2) as r and s are
  even-even, even-odd, odd-even or odd-odd. The reference does this on the whole arrays; the kernel does it block by
  block, four channels of one batch entry at a time, on a grid of 8 x 16 points whose result blocks tile the result.

  Since the arithmetic is the same expression on both sides, nothing about the numbers is used — not even that the inputs
  are finite: the whole proof is about WHICH entry each program reads. Proof/LibQuadInterleave.lean reads the interleave's
  chain of unit-axis insertions, two-piece concatenations and the final row-major flattening at an index, in the kernel's
  spelling (shape casts) and in the reference's (broadcasts that keep every axis); Proof/Haar.lean states the transform
  as one function of the four arrays; Proof/Payload.lean shows the kernel's stored block is the transform of its loaded
  blocks; Proof/KernelValue.lean that the blocks written back are the blocks of the transform of the whole arrays and
  tile the result; Proof/RefValue.lean that the reference's result is the transform. The three frames are the generated
  runs; the idealization changed no operation, so there is nothing to preserve.
-/
import proofs.«150570_j65790309040483_2_alg».proof.Defs
import proofs.«150570_j65790309040483_2_alg».proof.Proof.Gen.Kernel
import proofs.«150570_j65790309040483_2_alg».proof.Proof.Gen.Kernel.Skeleton
import proofs.«150570_j65790309040483_2_alg».proof.Proof.Gen.Kernel.Launch
import proofs.«150570_j65790309040483_2_alg».proof.Proof.Gen.Kernel.Points
import proofs.«150570_j65790309040483_2_alg».proof.Proof.Gen.Kernel.Frame
import proofs.«150570_j65790309040483_2_alg».proof.Proof.Gen.KernelIdeal
import proofs.«150570_j65790309040483_2_alg».proof.Proof.Gen.KernelIdeal.Skeleton
import proofs.«150570_j65790309040483_2_alg».proof.Proof.Gen.KernelIdeal.Launch
import proofs.«150570_j65790309040483_2_alg».proof.Proof.Gen.KernelIdeal.Points
import proofs.«150570_j65790309040483_2_alg».proof.Proof.Gen.KernelIdeal.Frame
import proofs.«150570_j65790309040483_2_alg».proof.Proof.Gen.ReferenceIdeal
import proofs.«150570_j65790309040483_2_alg».proof.Proof.Gen.KernelIdeal.Value
import proofs.«150570_j65790309040483_2_alg».proof.Proof.Gen.ReferenceIdeal.Run
import proofs.«150570_j65790309040483_2_alg».proof.Proof.Gen.ReferenceIdeal.Read
import proofs.«150570_j65790309040483_2_alg».proof.Proof.Gen.Pre_finite_inputs
import proofs.«150570_j65790309040483_2_alg».proof.Proof.KernelValue
import proofs.«150570_j65790309040483_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four subbands, the kernel's result array and the reference's are both the inverse
    Haar transform of the subbands. -/
theorem algebraic : Cert.algebraic_KernelIdeal_ReferenceIdeal := by
  intro m ρ m' ρ' _ hagree
  refine ⟨_, Cert.Haar.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans (Cert.Haar.Reference.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
